-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S512x128 : Shape := ⟨2, ![512, 128]⟩
abbrev S512 : Shape := ⟨1, ![512]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_

variable [Facts]

def fn {F : FTy → Type} [FloatOps F] (main_arg0 : FVec F S131072x128 .f32) (main_arg1 : FVec F S512x128 .f32) (main_arg2 : FVec F S512 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  main_v13
-- ==== Kernel.lean ====
abbrev S131072x128 : Shape := ⟨2, ![131072, 128]⟩
abbrev S512x128 : Shape := ⟨2, ![512, 128]⟩
abbrev S512 : Shape := ⟨1, ![512]⟩
abbrev S_ : Shape := ⟨0, ![]⟩
abbrev S512x1 : Shape := ⟨2, ![512, 1]⟩
abbrev S1x512 : Shape := ⟨2, ![1, 512]⟩
abbrev S131072x512 : Shape := ⟨2, ![131072, 512]⟩
abbrev S2048x128 : Shape := ⟨2, ![2048, 128]⟩
abbrev S2048x512 : Shape := ⟨2, ![2048, 512]⟩
abbrev S2048 : Shape := ⟨1, ![2048]⟩
abbrev S2048x1 : Shape := ⟨2, ![2048, 1]⟩

abbrev nBuf : Space → Nat
  | .hbm => 14
  | .vmem => 7
  | .smem => 0
  | _ => 0

abbrev bufTy : (tb : Table) → Fin (tcTables nBuf tb) → BufTy
  | .hbm, ⟨0, _⟩ => ⟨S131072x128, .f32⟩
  | .hbm, ⟨1, _⟩ => ⟨S512x128, .f32⟩
  | .hbm, ⟨2, _⟩ => ⟨S512, .f32⟩
  | .hbm, ⟨3, _⟩ => ⟨S512x128, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S1x512, .f32⟩
  | .hbm, ⟨8, _⟩ => ⟨S_, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S1x512, .f32⟩
  | .hbm, ⟨13, _⟩ => ⟨S131072x512, .f32⟩
  | .local _ .vmem, ⟨0, _⟩ => ⟨S2048x128, .f32⟩
  | .local _ .vmem, ⟨1, _⟩ => ⟨S2048x128, .f32⟩
  | .local _ .vmem, ⟨2, _⟩ => ⟨S512x128, .f32⟩
  | .local _ .vmem, ⟨3, _⟩ => ⟨S1x512, .f32⟩
  | .local _ .vmem, ⟨4, _⟩ => ⟨S1x512, .f32⟩
  | .local _ .vmem, ⟨5, _⟩ => ⟨S2048x512, .f32⟩
  | .local _ .vmem, ⟨6, _⟩ => ⟨S2048x512, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S512x128_S512_d1 : S512x128.ReducesTo [1] S512
  h_S_ : 0 < S_.numel
  bcast_S512_S512x1_0 : S512.BroadcastsInDim S512x1 (![0] : Fin 1 → Fin S512x1.rank)
  shapeCasts_S512x1_S1x512 : S512x1.ShapeCasts S1x512
  bcast_S_S512 : S_.BroadcastsInDim S512 (![] : Fin 0 → Fin S512.rank)
  shapeCasts_S512_S1x512 : S512.ShapeCasts S1x512
  inb_S2048x128_S2048x128_0_0 : ∀ a, (![0, 0] : Fin 2 → Nat) a + S2048x128.size a ≤ S2048x128.size a
  h_S2048x128 : 0 < S2048x128.numel
  inb_S512x128_S512x128_0_0 : ∀ a, (![0, 0] : Fin 2 → Nat) a + S512x128.size a ≤ S512x128.size a
  h_S512x128 : 0 < S512x128.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S2048x128_S2048 : S2048x128.Reduces [1] S2048
  shapeCasts_S2048_S2048x1 : S2048.ShapeCasts S2048x1
  broadcasts_S2048x1_S2048x512 : S2048x1.Broadcasts S2048x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  dot_S2048x128_S512x128_S2048x512_1_1_0_0_n_n_wf : DotDims.WF S2048x128 S512x128 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S131072x128.size a
  hwx0_0 : ∀ i : grid0.Coords, EltTy.bits .f32 = 32 ∨ (Rect.block (s := S131072x128) S2048x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S131072x512.size a
  hwx0_4 : ∀ i : grid0.Coords, EltTy.bits .f32 = 32 ∨ (Rect.block (s := S131072x512) S2048x512.size (cc0_transform_4 i) (hinb0_4 i)).WholeWords (EltTy.packing .f32)

variable [Facts₀]

def dot_S2048x128_S512x128_S2048x512_1_1_0_0_n_n : DotDims S2048x128 S512x128 S2048x512 where
  lhsContracting := [1]
  rhsContracting := [1]
  lhsNonContracting := [0]
  rhsNonContracting := [0]
  lhsBatch := []
  rhsBatch := []
  wf := dot_S2048x128_S512x128_S2048x512_1_1_0_0_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S2048x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x128 : Shape := ⟨2, ![131072, 128]⟩
abbrev S512x128 : Shape := ⟨2, ![512, 128]⟩
abbrev S512 : Shape := ⟨1, ![512]⟩
abbrev S_ : Shape := ⟨0, ![]⟩
abbrev S131072 : Shape := ⟨1, ![131072]⟩
abbrev S131072x1 : Shape := ⟨2, ![131072, 1]⟩
abbrev S128x512 : Shape := ⟨2, ![128, 512]⟩
abbrev S131072x512 : Shape := ⟨2, ![131072, 512]⟩
abbrev S1x512 : Shape := ⟨2, ![1, 512]⟩

abbrev nBuf : Space → Nat
  | .hbm => 31
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S512x128, .f32⟩
  | .hbm, ⟨2, _⟩ => ⟨S512, .f32⟩
  | .hbm, ⟨3, _⟩ => ⟨S131072x128, .f32⟩
  | .hbm, ⟨4, _⟩ => ⟨S_, .f32⟩
  | .hbm, ⟨5, _⟩ => ⟨S131072, .f32⟩
  | .hbm, ⟨6, _⟩ => ⟨S131072x1, .f32⟩
  | .hbm, ⟨7, _⟩ => ⟨S512x128, .f32⟩
  | .hbm, ⟨8, _⟩ => ⟨S_, .f32⟩
  | .hbm, ⟨9, _⟩ => ⟨S512, .f32⟩
  | .hbm, ⟨10, _⟩ => ⟨S128x512, .f32⟩
  | .hbm, ⟨11, _⟩ => ⟨S131072x512, .f32⟩
  | .hbm, ⟨12, _⟩ => ⟨S_, .f32⟩
  | .hbm, ⟨13, _⟩ => ⟨S131072x512, .f32⟩
  | .hbm, ⟨14, _⟩ => ⟨S131072x512, .f32⟩
  | .hbm, ⟨15, _⟩ => ⟨S131072x512, .f32⟩
  | .hbm, ⟨16, _⟩ => ⟨S131072x512, .f32⟩
  | .hbm, ⟨17, _⟩ => ⟨S1x512, .f32⟩
  | .hbm, ⟨18, _⟩ => ⟨S131072x512, .f32⟩
  | .hbm, ⟨19, _⟩ => ⟨S131072x512, .f32⟩
  | .hbm, ⟨20, _⟩ => ⟨S_, .f32⟩
  | .hbm, ⟨21, _⟩ => ⟨S131072x512, .f32⟩
  | .hbm, ⟨22, _⟩ => ⟨S131072x512, .f32⟩
  | .hbm, ⟨23, _⟩ => ⟨S131072x512, .f32⟩
  | .hbm, ⟨24, _⟩ => ⟨S512, .f32⟩
  | .hbm, ⟨25, _⟩ => ⟨S1x512, .f32⟩
  | .hbm, ⟨26, _⟩ => ⟨S131072x512, .f32⟩
  | .hbm, ⟨27, _⟩ => ⟨S131072x512, .f32⟩
  | .hbm, ⟨28, _⟩ => ⟨S131072x512, .f32⟩
  | .hbm, ⟨29, _⟩ => ⟨S131072x512, .f32⟩
  | .hbm, ⟨30, _⟩ => ⟨S131072x512, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]

class Facts₀ : Prop where
  reducesTo_S131072x128_S131072_d1 : S131072x128.ReducesTo [1] S131072
  h_S_ : 0 < S_.numel
  bcast_S131072_S131072x1_0 : S131072.BroadcastsInDim S131072x1 (![0] : Fin 1 → Fin S131072x1.rank)
  reducesTo_S512x128_S512_d1 : S512x128.ReducesTo [1] S512
  transposes_S512x128_S128x512_1_0 : S512x128.Transposes [1, 0] S128x512
  bcast_S_S131072x512 : S_.BroadcastsInDim S131072x512 (![] : Fin 0 → Fin S131072x512.rank)
  bcast_S131072x1_S131072x512_0_1 : S131072x1.BroadcastsInDim S131072x512 (![0, 1] : Fin 2 → Fin S131072x512.rank)
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  dot_S131072x128_S128x512_S131072x512_1_0_0_1_n_n_wf : DotDims.WF S131072x128 S128x512 S131072x512 [1] [0] [0] [1] [] []

variable [Facts₀]

def dot_S131072x128_S128x512_S131072x512_1_0_0_1_n_n : DotDims S131072x128 S128x512 S131072x512 where
  lhsContracting := [1]
  rhsContracting := [0]
  lhsNonContracting := [0]
  rhsNonContracting := [1]
  lhsBatch := []
  rhsBatch := []
  wf := dot_S131072x128_S128x512_S131072x512_1_0_0_1_n_n_wf

class Facts : Prop extends Facts₀ where

variable [Facts]
-- ==== Proof.LibColumns.lean ====
/-
  Three ways a column of numbers meets a matrix, read at an index, and a row sum — general in the extents.

  A vector of `a` numbers recast as an `a × 1` column reads, at `(p, 0)`, entry `p`; an `a × 1` column spread over `b`
  columns reads, at `(p, c)`, the column's entry `p`; and the sum of a matrix over its second axis, over the extended
  reals, reads at `p` the sum over `k` of the entries `(p, k)`. (The transposed column `a × 1 → 1 × a` and the row spread
  over many rows are already in the library.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibColumns

open Idealize.ShloMosaic Idealize.ShloMosaic.ValueIdx

variable {α : Type}

/-- A vector of `a` entries cast to an `a × 1` column reads, at `(p, z)`, the vector's entry `p`. -/
theorem shapeCast_a_a1_apply {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) := by
  refine shapeCast_apply x h (ix2 p z) (ix1 p) ?_
  rw [Shape.rowMajor_val_one, Shape.rowMajor_val_two]
  show p.val = p.val * 1 + z.val
  have := z.isLt
  omega

/-- An `a × 1` column broadcast to `a × b` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- Over the extended reals the sum of an `n × m` matrix along its second axis reads, at `p`, `∑ₖ src (p, k)`. -/
theorem rowSum_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (p : Fin n) :
    multiReduction .add [1] ⟨1, ![n]⟩ src acc h hφ hacc (ix1 p) = ∑ k : Fin m, src (ix2 p k) := by
  refine (Ideal.multiReduction_add_single src acc h hφ hacc (ix1 p)).trans ?_
  refine Finset.sum_congr rfl fun k _ => congrArg src ?_
  funext c
  apply Fin.ext
  match c with
  | ⟨0, _⟩ => rfl
  | ⟨1, _⟩ => rfl

end Cert.LibColumns

end
-- ==== Proof.Spec.lean ====
/-
  The result both programs compute, as ONE function of the three argument arrays.

  With `x` the 131072 × 128 points, `c` the 512 × 128 centres and `s` the 512 log-widths, entry `(r, q)` is

      exp(0 − D(r, q) · w(q)),   D(r, q) = max(‖x_r‖² − 2·⟨x_r, c_q⟩ + ‖c_q‖², 0),   w(q) = exp((−2) · s_q),

  every operation the extended reals' own; `‖·‖²` and `⟨·,·⟩` are plain sums over the 128 features. The factor `2` is
  kept as the float word both programs spell (it is never evaluated); the zeros are the number `0`.
-/
import Idealize.ShloMosaic.PureOps.Ideal
import Idealize.ShloMosaic.Lib.ValueIdx

noncomputable section

open scoped BigOperators

namespace Cert.Rbf

open Idealize.ShloMosaic Idealize.ShloMosaic.ValueIdx

/-- `‖a_r‖²`: the sum over the 128 features of the squares of row `r`. -/
def normSq {n : ℕ} (a : FVec Ideal ⟨2, ![n, 128]⟩ .f32) (r : Fin n) : EReal :=
  ∑ k : Fin 128, a (ix2 r k) * a (ix2 r k)

/-- `⟨a_r, b_q⟩`: the sum over the 128 features of the products of row `r` of `a` and row `q` of `b`. -/
def inner {n m : ℕ} (a : FVec Ideal ⟨2, ![n, 128]⟩ .f32) (b : FVec Ideal ⟨2, ![m, 128]⟩ .f32) (r : Fin n) (q : Fin m) : EReal :=
  ∑ k : Fin 128, a (ix2 r k) * b (ix2 q k)

/-- The clamped squared distance from its three parts: `max(xs − 2·cr + cs, 0)`. -/
def dist2 (xs cr cs : EReal) : EReal :=
  max (xs - Ideal.ofBits .f32 0x40000000#32 * cr + cs) 0

/-- It is never below zero, whatever the parts are (infinite ones included). -/
theorem dist2_nonneg (xs cr cs : EReal) : 0 ≤ dist2 xs cr cs := le_max_right _ _

/-- The Gaussian of a squared distance `D` under a weight `w`: `exp(0 − D·w)`. -/
def gauss (D w : EReal) : EReal := Ideal.exp (0 - D * w)

/-- Entry `(r, q)` of the result. -/
def rbfAt (x : FVec Ideal ⟨2, ![131072, 128]⟩ .f32) (c : FVec Ideal ⟨2, ![512, 128]⟩ .f32) (s : FVec Ideal ⟨1, ![512]⟩ .f32)
    (r : Fin 131072) (q : Fin 512) : EReal :=
  gauss (dist2 (normSq x r) (inner x c r q) (normSq c q)) (Ideal.exp (Ideal.ofBits .f32 0xC0000000#32 * s (ix1 q)))

/-- The whole result array. -/
def rbf (x : FVec Ideal ⟨2, ![131072, 128]⟩ .f32) (c : FVec Ideal ⟨2, ![512, 128]⟩ .f32) (s : FVec Ideal ⟨1, ![512]⟩ .f32) :
    FVec Ideal ⟨2, ![131072, 512]⟩ .f32 :=
  fun i => rbfAt x c s (i 0) (i 1)

theorem rbf_ix2 (x : FVec Ideal ⟨2, ![131072, 128]⟩ .f32) (c : FVec Ideal ⟨2, ![512, 128]⟩ .f32) (s : FVec Ideal ⟨1, ![512]⟩ .f32)
    (r : Fin 131072) (q : Fin 512) : rbf x c s (ix2 r q) = rbfAt x c s r q := rfl

end Cert.Rbf

end
-- ==== Proof.Body.lean ====
/-
  The kernel body's one stored value, read at an index of the 2048 × 512 block.

  The body loads a block `x0` of 2048 points, all 512 centres `x1`, and two 1 × 512 rows: `x2` (the centres' squared
  norms) and `x3` (the weights). At `(p, q)` it stores

      exp(0 − max(‖x0_p‖² − 2·⟨x0_p, x1_q⟩ + x2(0,q), 0) · x3(0,q)).

  Three of its operations are not pointwise and are read here one at a time: the row norms (a sum over the feature
  axis, recast as a column and spread over the 512 columns), the matrix product against a zero accumulator (a sum
  over the shared feature axis, the right operand contracted on its last axis), and a 1 × 512 row spread over the
  2048 rows. The rest is pointwise and reads through by unfolding.
-/
import proofs.«179064_j68968584839825_2_alg».proof.Proof.Gen.KernelIdeal.Skeleton
import proofs.«179064_j68968584839825_2_alg».proof.Proof.LibColumns
import proofs.«179064_j68968584839825_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Rbf.Body

open Idealize.ShloMosaic Idealize.ShloMosaic.ValueIdx Cert.KernelIdeal
open Cert.KernelIdeal.Facts₀ Cert.KernelIdeal.Facts

/-- The row norms of the block, as the body spreads them over the columns: at `(p, q)`, `‖x0_p‖²`. -/
theorem rowNorm_apply (x0 : FVec Ideal S2048x128 .f32) (p : Fin 2048) (q : Fin 512) :
    broadcastTo S2048x512 (shapeCast S2048x1 (multiReduction .add [1] S2048 (mulf x0 x0) 0x00000000#32 reduces_S2048x128_S2048 (.inl rfl) rfl) shapeCasts_S2048_S2048x1) broadcasts_S2048x1_S2048x512 (ix2 p q)
      = normSq x0 p := by
  refine (Cert.LibColumns.broadcastTo_a1_ab_apply _ broadcasts_S2048x1_S2048x512 p q).trans ?_
  refine (Cert.LibColumns.shapeCast_a_a1_apply _ shapeCasts_S2048_S2048x1 p 0).trans ?_
  exact Cert.LibColumns.rowSum_apply (mulf x0 x0) 0x00000000#32 reduces_S2048x128_S2048 (.inl rfl) rfl p

/-- A 1 × 512 row (recast to its own shape) spread over the 2048 rows: at `(p, q)`, the row's entry `q`. -/
theorem row_apply (v : FVec Ideal S1x512 .f32) (p : Fin 2048) (q : Fin 512) :
    broadcastTo S2048x512 (shapeCast S1x512 v shapeCasts_S1x512_S1x512) broadcasts_S1x512_S2048x512 (ix2 p q) = v (ix2 (0 : Fin 1) q) := by
  rw [shapeCast_self]
  exact broadcastTo_1b_ab_apply v broadcasts_S1x512_S2048x512 p q

/-- On the left operand's rows axis (not contracted) the product's index map keeps the output's row. -/
theorem lhs_row (j : S2048x512.Idx) (k : dot_S2048x128_S512x128_S2048x512_1_1_0_0_n_n.contr.Idx) :
    (dot_S2048x128_S512x128_S2048x512_1_1_0_0_n_n.lhsIdx j k 0).val = (j 0).val := by
  unfold DotDims.lhsIdx
  rw [dif_neg (show ¬(0 : Fin S2048x128.rank) ∈ dot_S2048x128_S512x128_S2048x512_1_1_0_0_n_n.lhsBatch by decide), dif_pos (show (0 : Fin S2048x128.rank) ∈ dot_S2048x128_S512x128_S2048x512_1_1_0_0_n_n.lhsNonContracting by decide)]
  rfl

/-- On the right operand's rows axis (not contracted) the product's index map takes the output's column. -/
theorem rhs_row (j : S2048x512.Idx) (k : dot_S2048x128_S512x128_S2048x512_1_1_0_0_n_n.contr.Idx) :
    (dot_S2048x128_S512x128_S2048x512_1_1_0_0_n_n.rhsIdx j k 0).val = (j 1).val := by
  unfold DotDims.rhsIdx
  rw [dif_neg (show ¬(0 : Fin S512x128.rank) ∈ dot_S2048x128_S512x128_S2048x512_1_1_0_0_n_n.rhsBatch by decide), dif_pos (show (0 : Fin S512x128.rank) ∈ dot_S2048x128_S512x128_S2048x512_1_1_0_0_n_n.rhsNonContracting by decide)]
  rfl

/-- The matrix product of the block with the centres into a zero accumulator: at `(p, q)`, `⟨x0_p, x1_q⟩`. -/
theorem cross_apply (x0 : FVec Ideal S2048x128 .f32) (x1 : FVec Ideal S512x128 .f32) (p : Fin 2048) (q : Fin 512) :
    matmul dot_S2048x128_S512x128_S2048x512_1_1_0_0_n_n (some .fp32) x0 x1 (constant S2048x512 .f32 0x00000000#32) (ix2 p q)
      = inner x0 x1 p q := by
  refine (Ideal.matmul_constant_zero_apply dot_S2048x128_S512x128_S2048x512_1_1_0_0_n_n (some .fp32) x0 x1 (ix2 p q)).trans ?_
  rw [← Equiv.sum_comp (contrEquiv1 dot_S2048x128_S512x128_S2048x512_1_1_0_0_n_n 128 rfl rfl).symm]
  refine Finset.sum_congr rfl fun k _ => ?_
  have hk := contrEquiv1_symm_val dot_S2048x128_S512x128_S2048x512_1_1_0_0_n_n 128 rfl rfl k
  have el : dot_S2048x128_S512x128_S2048x512_1_1_0_0_n_n.lhsIdx (ix2 p q) ((contrEquiv1 dot_S2048x128_S512x128_S2048x512_1_1_0_0_n_n 128 rfl rfl).symm k) = ix2 p k := funext fun a => Fin.ext (by
    match a with
    | ⟨0, _⟩ => exact lhs_row _ _
    | ⟨1, _⟩ => exact (dot_S2048x128_S512x128_S2048x512_1_1_0_0_n_n.lhsIdx_val_of_single rfl _ _).trans hk)
  have er : dot_S2048x128_S512x128_S2048x512_1_1_0_0_n_n.rhsIdx (ix2 p q) ((contrEquiv1 dot_S2048x128_S512x128_S2048x512_1_1_0_0_n_n 128 rfl rfl).symm k) = ix2 q k := funext fun a => Fin.ext (by
    match a with
    | ⟨0, _⟩ => exact rhs_row _ _
    | ⟨1, _⟩ => exact (dot_S2048x128_S512x128_S2048x512_1_1_0_0_n_n.rhsIdx_val_of_single rfl _ _).trans hk)
  rw [el, er]

/-- THE STORED VALUE at `(p, q)`: the Gaussian of the clamped squared distance between point `p` of the block and
    centre `q`, under the weight the fourth operand holds at `q`. -/
theorem stored_apply (x0 : FVec Ideal S2048x128 .f32) (x1 : FVec Ideal S512x128 .f32) (x2 x3 : FVec Ideal S1x512 .f32)
    (p : Fin 2048) (q : Fin 512) :
    Gen.k0_pay1 (F := Ideal) x0 x1 x2 x3 (ix2 p q)
      = gauss (dist2 (normSq x0 p) (inner x0 x1 p q) (x2 (ix2 (0 : Fin 1) q))) (x3 (ix2 (0 : Fin 1) q)) := by
  unfold Gen.k0_pay1 gauss dist2
  show Ideal.exp (Ideal.ofBits .f32 0x00000000#32 - max (_ - Ideal.ofBits .f32 0x40000000#32 * _ + _) (Ideal.ofBits .f32 0x00000000#32) * _) = _
  rw [Ideal.ofBits_zero_f32]
  rw [rowNorm_apply x0 p q, cross_apply x0 x1 p q, row_apply x2 p q, row_apply x3 p q]

end Cert.Rbf.Body

end
-- ==== Proof.HostRows.lean ====
/-
  The two 1 × 512 rows the host computes before the region, as the region finds them, read at `(0, q)`.

  The third operand of the call is the centres' squared norms: the host squares the centres, sums each row from the
  number zero, makes the 512 sums a 512 × 1 column and recasts it as a 1 × 512 row; its entry `(0, q)` is `‖c_q‖²`.
  The fourth is the weights: `−2` spread over 512 entries, times the log-widths, exponentiated, recast as a
  1 × 512 row; its entry `(0, q)` is `exp((−2) · s_q)`.
-/
import proofs.«179064_j68968584839825_2_alg».proof.Proof.Gen.KernelIdeal.Frame
import proofs.«179064_j68968584839825_2_alg».proof.Proof.Spec
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Rbf.HostRows

open Idealize.ShloMosaic Idealize.ShloMosaic.TcCoe Idealize.ShloMosaic.ValueIdx Idealize.SL.Sem Idealize.ShloMosaic.StableHlo
open Cert.KernelIdeal
open Cert.KernelIdeal.Facts₀ Cert.KernelIdeal.Facts

variable (m : (ℓ : Loc nD τ sig) → Buf (Elt Ideal) ℓ)

/-- The host's sum of a 512 × 128 array along its second axis from an initial value, at `q`: the initial value plus
    the sum over `k` of the entries `(q, k)`. -/
theorem hostRowSum_apply (src : FVec Ideal S512x128 .f32) (init : FVec Ideal S_ .f32) (q : Fin 512) :
    Host.reduceAdd (F := Ideal) src init reducesTo_S512x128_S512_d1 h_S_ (ix1 q)
      = init (Shape.Idx.first h_S_) + ∑ k : Fin 128, src (ix2 q k) := by
  simp only [Host.reduceAdd, Ideal.hostReduceAdd_def]
  rw [Ideal.hostReduceAdd_single reducesTo_S512x128_S512_d1 (by decide)]
  refine congrArg (_ + ·) (Finset.sum_congr rfl fun k _ => ?_)
  exact congrArg src (funext fun a => Fin.ext (by match a with | ⟨0, _⟩ => rfl | ⟨1, _⟩ => rfl))

/-- The third operand's array when the region is entered, as the host operations' term. -/
theorem normsRow_term (c : Dev nD) :
    (Gen.V m c main_v3 : S1x512.Idx → EReal)
      = shapeCast S1x512 (broadcastInDim S512x1 ![0] bcast_S512_S512x1_0
          (Host.reduceAdd (F := Ideal) (mulf (m ((c : Thread nD τ).loc main_arg1)) (m ((c : Thread nD τ).loc main_arg1)))
            (constant (F := Ideal) S_ .f32 0x00000000#32) reducesTo_S512x128_S512_d1 h_S_)) shapeCasts_S512x1_S1x512 := by
  dsimp only [Gen.V, Gen.hostOps0]; after_results; rfl

/-- Its entry `(0, q)` is `‖c_q‖²`. -/
theorem normsRow_apply (c : Dev nD) (q : Fin 512) :
    (Gen.V m c main_v3 : S1x512.Idx → EReal) (ix2 (0 : Fin 1) q) = normSq (m ((c : Thread nD τ).loc main_arg1)) q := by
  rw [normsRow_term]
  refine (shapeCast_apply _ shapeCasts_S512x1_S1x512 (ix2 (0 : Fin 1) q) (ix2 q (0 : Fin 1)) ?_).trans ?_
  · rw [Shape.rowMajor_val_two, Shape.rowMajor_val_two]
    show q.val * 1 + 0 = 0 * 512 + q.val
    omega
  refine (broadcastInDim_apply _ bcast_S512_S512x1_0 _ (ix2 q (0 : Fin 1)) (ix1 q) (fun a => match a with
    | ⟨0, _⟩ => by show q.val = if (512 : Nat) = 1 then 0 else q.val; rw [if_neg (by decide)])).trans ?_
  rw [hostRowSum_apply]
  show Ideal.ofBits .f32 0x00000000#32 + _ = _
  rw [Ideal.ofBits_zero_f32, zero_add]
  rfl

/-- The fourth operand's array when the region is entered, as the host operations' term. -/
theorem weightsRow_term (c : Dev nD) :
    (Gen.V m c main_v7 : S1x512.Idx → EReal)
      = shapeCast S1x512 (Host.exp (F := Ideal) (mulf (broadcastInDim S512 ![] bcast_S_S512 (constant (F := Ideal) S_ .f32 0xC0000000#32))
          (m ((c : Thread nD τ).loc main_arg2)))) shapeCasts_S512_S1x512 := by
  dsimp only [Gen.V, Gen.hostOps0]; after_results; rfl

/-- Its entry `(0, q)` is `exp((−2) · s_q)`, the `−2` as the float word the host spells. -/
theorem weightsRow_apply (c : Dev nD) (q : Fin 512) :
    (Gen.V m c main_v7 : S1x512.Idx → EReal) (ix2 (0 : Fin 1) q)
      = Ideal.exp (Ideal.ofBits .f32 0xC0000000#32 * (m ((c : Thread nD τ).loc main_arg2) : S512.Idx → EReal) (ix1 q)) := by
  rw [weightsRow_term]
  refine (shapeCast_a_1a_apply _ shapeCasts_S512_S1x512 (0 : Fin 1) q).trans ?_
  show Ideal.exp (broadcastInDim S512 ![] bcast_S_S512 (constant (F := Ideal) S_ .f32 0xC0000000#32) (ix1 q) * _) = _
  rw [broadcastInDim_apply _ bcast_S_S512 _ (ix1 q) ix0 (fun a => a.elim0)]
  rfl

end Cert.Rbf.HostRows

end
-- ==== Proof.Blocks.lean ====
/-
  From the blocks the grid points write to the whole result array.

  The grid has 64 points. Point `t` stages rows `2048·t … 2048·t + 2047` of the points array, the whole centres
  array and the two whole 1 × 512 rows, and writes back rows `2048·t … 2048·t + 2047` of the result. What it writes
  at `(p, q)` of its block is the body's stored value of those operands, which is the common function's entry
  `(2048·t + p, q)`: the block's point `p` is point `2048·t + p` of the array, the row of squared norms holds
  `‖c_q‖²` and the row of weights `exp((−2)·s_q)`. Row `r` of the result lies in the block of point `r / 2048`, so the
  64 blocks cover the array and it ends holding the common function.
-/
import proofs.«179064_j68968584839825_2_alg».proof.Proof.Gen.KernelIdeal.Value
import proofs.«179064_j68968584839825_2_alg».proof.Proof.Body
import proofs.«179064_j68968584839825_2_alg».proof.Proof.HostRows
import proofs.«179064_j68968584839825_2_alg».proof.Proof.Spec

noncomputable section

open scoped BigOperators

namespace Cert.Rbf.Blocks

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps over the 64 grid points: the points' and the result's blocks move with the point along
    the rows; the centres' block and the two rows' blocks stay at the origin. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- ONE ENTRY, over plain variables: if the first operand's row `p` is row `T·2048 + p` of the points, the second
    operand is the centres, and the two rows hold the centres' squared norms and the weights, then the body's stored
    value at `j` is the common function's entry at the array index `i` that `j` sits at. -/
theorem entry_eq (a0 : FVec Ideal S131072x128 .f32) (a1 : FVec Ideal S512x128 .f32) (a2 : FVec Ideal S512 .f32)
    (x0 : FVec Ideal S2048x128 .f32) (x1 : FVec Ideal S512x128 .f32) (x2 x3 : FVec Ideal S1x512 .f32)
    (j : S2048x512.Idx) (i : S131072x512.Idx) (T : ℕ)
    (hi0 : (i 0).val = T * 2048 + (j 0).val) (hi1 : (i 1).val = (j 1).val)
    (h0 : ∀ (p : Fin 2048) (k : Fin 128) (r : Fin 131072), r.val = T * 2048 + p.val → x0 (ix2 p k) = a0 (ix2 r k))
    (h1 : ∀ (q : Fin 512) (k : Fin 128), x1 (ix2 q k) = a1 (ix2 q k))
    (h2 : ∀ q : Fin 512, x2 (ix2 (0 : Fin 1) q) = normSq a1 q)
    (h3 : ∀ q : Fin 512, x3 (ix2 (0 : Fin 1) q) = Ideal.exp (Ideal.ofBits .f32 0xC0000000#32 * a2 (ix1 q))) :
    Gen.k0_pay1 (F := Ideal) x0 x1 x2 x3 j = rbf a0 a1 a2 i := by
  obtain ⟨p, q, rfl⟩ : ∃ (p : Fin 2048) (q : Fin 512), j = ix2 p q := ⟨j 0, j 1, eq_ix2 j⟩
  obtain ⟨r, q', rfl⟩ : ∃ (r : Fin 131072) (q' : Fin 512), i = ix2 r q' := ⟨i 0, i 1, eq_ix2 i⟩
  have hq : q' = q := Fin.ext hi1
  subst hq
  have hr : r.val = T * 2048 + p.val := hi0
  rw [Body.stored_apply, rbf_ix2]
  unfold rbfAt
  rw [h2, h3]
  have en : normSq x0 p = normSq a0 r := by
    unfold normSq
    exact Finset.sum_congr rfl fun k _ => by rw [h0 p k r hr]
  have ei : inner x0 x1 p q' = inner a0 a1 r q' := by
    unfold inner
    exact Finset.sum_congr rfl fun k _ => by rw [h0 p k r hr, h1 q' k]
  rw [en, ei]

/-- WHAT POINT `t` WRITES BACK is block `t` of the common function of the three argument arrays. -/
theorem flushed_eq (c : Dev nD) (t : Fin cfg0.N) :
    (dats m 0 c).flushed 4 t = ((cfg0.win 4).blk t).view.read (Elt Ideal)
      (rbf (m ((c : Thread nD τ).loc main_arg0)) (m ((c : Thread nD τ).loc main_arg1)) (m ((c : Thread nD τ).loc main_arg2))) := by
  rw [Cert.KernelIdeal.Value.flushed4]
  unfold out0_4
  rw [View.canon_unit_zero zero_offsets]
  simp only [View.ld_unit_zero (S := S2048x128) zero_offsets, View.ld_unit_zero (S := S512x128) zero_offsets,
    View.ld_unit_zero (S := S1x512) zero_offsets]
  obtain ⟨e0, e1, e2, e3, e4, e5, e6, e7, e8, e9⟩ := index_maps t
  funext j
  refine entry_eq (m ((c : Thread nD τ).loc main_arg0)) (m ((c : Thread nD τ).loc main_arg1)) (m ((c : Thread nD τ).loc main_arg2))
    (iblk m c 0 t) (iblk m c 1 t) (iblk m c 2 t) (iblk m c 3 t) j (((cfg0.win 4).blk t).view.emb j) t.val ?_ ?_ ?_ ?_ ?_ ?_
  · show win0_4.index t (0 : Fin 2) * 2048 + 1 * (j 0).val = t.val * 2048 + (j 0).val
    rw [e8]; omega
  · show win0_4.index t (1 : Fin 2) * 512 + 1 * (j 1).val = (j 1).val
    rw [e9]; omega
  · intro p k r hr
    show V m c main_arg0 (((cfg0.win 0).blk t).view.emb (ix2 p k)) = _
    rw [V_main_arg0]
    refine congrArg _ (funext fun a => Fin.ext ?_)
    match a with
    | ⟨0, _⟩ => show win0_0.index t (0 : Fin 2) * 2048 + 1 * p.val = r.val; rw [e0]; omega
    | ⟨1, _⟩ => show win0_0.index t (1 : Fin 2) * 128 + 1 * k.val = k.val; rw [e1]; omega
  · intro q k
    show V m c main_arg1 (((cfg0.win 1).blk t).view.emb (ix2 q k)) = _
    rw [V_main_arg1]
    refine congrArg _ (funext fun a => Fin.ext ?_)
    match a with
    | ⟨0, _⟩ => show win0_1.index t (0 : Fin 2) * 512 + 1 * q.val = q.val; rw [e2]; omega
    | ⟨1, _⟩ => show win0_1.index t (1 : Fin 2) * 128 + 1 * k.val = k.val; rw [e3]; omega
  · intro q
    have hemb : ((cfg0.win 2).blk t).view.emb (ix2 (0 : Fin 1) q) = ix2 (0 : Fin 1) q := by
      funext a; apply Fin.ext
      match a with
      | ⟨0, _⟩ => show win0_2.index t (0 : Fin 2) * 1 + 1 * 0 = 0; rw [e4]
      | ⟨1, _⟩ => show win0_2.index t (1 : Fin 2) * 512 + 1 * q.val = q.val; rw [e5]; omega
    show V m c main_v3 (((cfg0.win 2).blk t).view.emb (ix2 (0 : Fin 1) q)) = _
    rw [hemb]
    exact HostRows.normsRow_apply m c q
  · intro q
    have hemb : ((cfg0.win 3).blk t).view.emb (ix2 (0 : Fin 1) q) = ix2 (0 : Fin 1) q := by
      funext a; apply Fin.ext
      match a with
      | ⟨0, _⟩ => show win0_3.index t (0 : Fin 2) * 1 + 1 * 0 = 0; rw [e6]
      | ⟨1, _⟩ => show win0_3.index t (1 : Fin 2) * 512 + 1 * q.val = q.val; rw [e7]; omega
    show V m c main_v7 (((cfg0.win 3).blk t).view.emb (ix2 (0 : Fin 1) q)) = _
    rw [hemb]
    exact HostRows.weightsRow_apply m c q

/-- An index of the result array is in point `t`'s block iff each coordinate is in the block's range on its axis. -/
theorem mem_blk (t : Fin cfg0.N) (i : S131072x512.Idx) :
    i ∈ ((cfg0.win 4).blk t).view.set ↔ ∀ a : Fin 2, win0_4.index t a * S2048x512.size a ≤ (i a).val ∧ (i a).val < win0_4.index t a * S2048x512.size a + S2048x512.size a := by
  show i ∈ ((View.whole main_v8).slice (win0_4.rect t)).set ↔ _
  rw [View.set_slice_whole, Rect.mem_set_unit]
  exact Iff.rfl

/-- THE BLOCKS COVER THE ARRAY: row `r` is in the block of point `r / 2048`. -/
theorem covered (i : S131072x512.Idx) :
    ∃ t : Fin cfg0.N, (cfg0.win 4).flush t = true ∧ i ∈ ((cfg0.win 4).blk t).view.set := by
  have hi0 : (i 0).val < 131072 := (i 0).isLt
  have hi1 : (i 1).val < 512 := (i 1).isLt
  have hN : cfg0.N = 64 := N_0
  have ht : (i 0).val / 2048 < cfg0.N := by rw [hN]; omega
  obtain ⟨-, -, -, -, -, -, -, -, e8, e9⟩ := index_maps ⟨(i 0).val / 2048, ht⟩
  refine ⟨⟨(i 0).val / 2048, ht⟩, flush0_4 _, ?_⟩
  rw [mem_blk]
  intro a
  match a with
  | ⟨0, _⟩ =>
    show win0_4.index ⟨(i 0).val / 2048, ht⟩ (0 : Fin 2) * 2048 ≤ (i 0).val ∧ (i 0).val < win0_4.index ⟨(i 0).val / 2048, ht⟩ (0 : Fin 2) * 2048 + 2048
    rw [e8]
    show (i 0).val / 2048 * 2048 ≤ (i 0).val ∧ (i 0).val < (i 0).val / 2048 * 2048 + 2048
    omega
  | ⟨1, _⟩ =>
    show win0_4.index ⟨(i 0).val / 2048, ht⟩ (1 : Fin 2) * 512 ≤ (i 1).val ∧ (i 1).val < win0_4.index ⟨(i 0).val / 2048, ht⟩ (1 : Fin 2) * 512 + 512
    rw [e9]
    omega

/-- THE RESULT ARRAY after the run is the common function of the three argument arrays. -/
theorem final (c : Dev nD) : (dats m 0 c).arrAt 4 cfg0.N
    = rbf (m ((c : Thread nD τ).loc main_arg0)) (m ((c : Thread nD τ).loc main_arg1)) (m ((c : Thread nD τ).loc main_arg2)) :=
  (dats m 0 c).arrAt_eq_of_cover 4 _ (fun t _ => flushed_eq m c t) covered

/-- The run, read: the result array at the common function of the arguments, the arguments unchanged. -/
theorem run : θ_run defs (onTc (τ := τ) (main (F := Ideal))) ⟨m, fun _ => 0, ρ⟩ fun r => ∀ c : Dev nD,
      r.2.mem ((c : Thread nD τ).loc main_v8)
        = rbf (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.Rbf.Blocks

end
-- ==== Proof.Law.lean ====
/-
  The one law that joins the two programs, on the extended reals.

  Both programs form the same squared distance `D = max(‖x‖² − 2⟨x,c⟩ + ‖c‖², 0)`, an extended real that is
  never below zero, and then differ only in how they scale it by the width `s`:

    one side takes  exp(0 − D · exp((−2) · s)),
    the other       exp(−((√D / exp s) · (√D / exp s))).

  For a REAL `s` these agree at every `D ≥ 0`: when `D` is real, `(√D / eˢ)² = D / e²ˢ = D · e⁻²ˢ`; when `D = +∞`
  both exponents are `−∞` (a positive real times `+∞` is `+∞`, and `√(+∞) = +∞`), so both sides are `exp(−∞) = 0`.
  Nothing is asked of `D` beyond `0 ≤ D`, so no finiteness of the points or the centres is needed; the width must
  be real (at `s = −∞`, `D = 0` the two sides are `1` and `0`).
-/
import Idealize.ShloMosaic.PureOps.Ideal
import Idealize.ShloMosaic.PureOps.Ideal.Laws

noncomputable section

namespace Cert.Rbf

open Idealize.ShloMosaic

/-- The word `0xC0000000` is the real number `−2`. -/
theorem ofBits_neg_two : Ideal.ofBits .f32 0xC0000000#32 = ((-2 : ℝ) : EReal) := by
  simp [Ideal.ofBits, Ideal.ieee, -EReal.coe_mul]; norm_num

/-- Over the reals: `d · e^(−2s) = (√d · (1/eˢ)) · (√d · (1/eˢ))` for `d ≥ 0`. -/
theorem real_scale (d s : ℝ) (hd : 0 ≤ d) :
    d * Real.exp (-2 * s) = (Real.sqrt d * (1 / Real.exp s)) * (Real.sqrt d * (1 / Real.exp s)) := by
  have he : Real.exp (-2 * s) = (1 / Real.exp s) * (1 / Real.exp s) := by
    rw [one_div, ← Real.exp_neg, ← Real.exp_add]
    congr 1; ring
  have hs : Real.sqrt d * Real.sqrt d = d := Real.mul_self_sqrt hd
  rw [he]
  calc d * (1 / Real.exp s * (1 / Real.exp s))
      = (Real.sqrt d * Real.sqrt d) * (1 / Real.exp s * (1 / Real.exp s)) := by rw [hs]
    _ = (Real.sqrt d * (1 / Real.exp s)) * (Real.sqrt d * (1 / Real.exp s)) := by ring

/-- THE LAW: for `0 ≤ D` on the extended reals and a real width `s`, scaling `D` by `exp((−2)·s)` and negating
    by `0 − ·` gives the same Gaussian as dividing `√D` by `exp s`, squaring and negating. -/
theorem gauss_scale (D : EReal) (hD : 0 ≤ D) (s : ℝ) :
    Ideal.exp (0 - D * Ideal.exp (((-2 : ℝ) : EReal) * (s : EReal)))
      = Ideal.exp (-(Ideal.div (Ideal.sqrt D) (Ideal.exp (s : EReal)) * Ideal.div (Ideal.sqrt D) (Ideal.exp (s : EReal)))) := by
  have hpos : (0 : ℝ) < 1 / Real.exp s := one_div_pos.mpr (Real.exp_pos s)
  have hpos2 : (0 : ℝ) < Real.exp (-2 * s) := Real.exp_pos _
  rw [zero_sub, ← EReal.coe_mul, Ideal.exp_coe, Ideal.exp_coe, Ideal.div_coe (Real.exp_ne_zero s)]
  induction D using EReal.rec with
  | bot => exact absurd hD (by simp)
  | coe d =>
    have hd : 0 ≤ d := by exact_mod_cast hD
    rw [Ideal.sqrt_coe, if_neg (not_lt.mpr hd), ← EReal.coe_mul, ← EReal.coe_mul, ← EReal.coe_mul, real_scale d s hd]
  | top =>
    rw [Ideal.sqrt_top, EReal.top_mul_coe_of_pos hpos2, EReal.top_mul_coe_of_pos hpos, EReal.top_mul_top]

end Cert.Rbf

end
-- ==== Proof.RefIs.lean ====
/-
  The reference's result, index by index, and that it is the common function under real log-widths.

  Read one operation at a time, the reference's entry `(r, q)` is

      exp(−((√D / exp s_q) · (√D / exp s_q))),   D = max(‖x_r‖² − 2·⟨x_r, c_q⟩ + ‖c_q‖², 0):

  the same clamped squared distance as the other program's (its sums start from the number zero, which adds
  nothing; its matrix product contracts the transposed centres on their first axis, which is the centres' last),
  scaled the other way round. The scaling law (for `D ≥ 0` and a real `s_q`) makes the two one function.
-/
import proofs.«179064_j68968584839825_2_alg».proof.Proof.Gen.ReferenceIdeal.Read
import proofs.«179064_j68968584839825_2_alg».proof.Proof.Spec
import proofs.«179064_j68968584839825_2_alg».proof.Proof.Law

noncomputable section

open scoped BigOperators

namespace Cert.Rbf.Ref

open Idealize.ShloMosaic Idealize.ShloMosaic.ValueIdx Cert.ReferenceIdeal Cert.ReferenceIdeal.Read

/-- The reference's entry `(r, q)` in its own arrangement. -/
def refAt (x : FVec Ideal S131072x128 .f32) (c : FVec Ideal S512x128 .f32) (s : FVec Ideal S512 .f32)
    (r : Fin 131072) (q : Fin 512) : EReal :=
  Ideal.exp (-(Ideal.div (Ideal.sqrt (dist2 (normSq x r) (inner x c r q) (normSq c q))) (Ideal.exp (s (ix1 q)))
    * Ideal.div (Ideal.sqrt (dist2 (normSq x r) (inner x c r q) (normSq c q))) (Ideal.exp (s (ix1 q)))))

/-- The reference's last stage at `(r, q)` is that entry. -/
theorem ref_apply (x : FVec Ideal S131072x128 .f32) (c : FVec Ideal S512x128 .f32) (s : FVec Ideal S512 .f32)
    (r : Fin 131072) (q : Fin 512) :
    val_main_v23 (F := Ideal) x c s (ix2 r q) = refAt x c s r q := by
  have h1 : ∀ k : Fin 128, idx_main_v1 (idx_main_v2 (idx_main_v9 (ix2 r q))) k = ix2 r k := fun k =>
    funext fun a => Fin.ext (by match a with | ⟨0, _⟩ => rfl | ⟨1, _⟩ => rfl)
  have h4 : ∀ k : Fin 128, idx_main_v4 (idx_main_v11 (idx_main_v12 (ix2 r q))) k = ix2 q k := fun k =>
    funext fun a => Fin.ext (by match a with | ⟨0, _⟩ => rfl | ⟨1, _⟩ => rfl)
  have hl : ∀ k : Fin 128, lidx_main_v6 (ix2 r q) k = ix2 r k := fun k =>
    funext fun a => Fin.ext (by match a with | ⟨0, _⟩ => rfl | ⟨1, _⟩ => rfl)
  have hr : ∀ k : Fin 128, idx_main_v5 (ridx_main_v6 (ix2 r q) k) = ix2 q k := fun k =>
    funext fun a => Fin.ext (by match a with | ⟨0, _⟩ => rfl | ⟨1, _⟩ => rfl)
  have hs : idx_main_v18 (idx_main_v19 (ix2 r q)) = ix1 q :=
    funext fun a => Fin.ext (by match a with | ⟨0, _⟩ => rfl)
  rw [val_main_v23_apply, val_main_v22_apply, val_main_v21_apply, val_main_v20_apply, val_main_v16_apply,
    val_main_v15_apply, val_main_v13_apply, val_main_v10_apply, val_main_v9_apply, val_main_v2_apply, val_main_v1_apply,
    val_main_v8_apply, val_main_v7_apply, val_main_cst_1_apply, val_main_v6_apply, val_main_v12_apply,
    val_main_v11_apply, val_main_v4_apply, val_main_v14_apply, val_main_cst_2_apply, val_main_v19_apply,
    val_main_v18_apply, val_main_v17_apply]
  simp only [val_main_v0_apply, val_main_v3_apply, val_main_v5_apply, val_main_cst_apply, val_main_cst_0_apply,
    h1, h4, hl, hr, hs, Ideal.hostUnary_exp_def, Ideal.hostUnary_sqrt_def, Ideal.hostDivf_def, Ideal.hostNegf_def,
    Ideal.negf_def, Ideal.mulf_def, Ideal.subf_def, Ideal.addf_def, Ideal.maximumf_def, Ideal.ofBits_def,
    Ideal.ofBits_zero_f32, zero_add]
  rfl

/-- With a real log-width the reference's entry is the common function's. -/
theorem refAt_eq_rbfAt (x : FVec Ideal S131072x128 .f32) (c : FVec Ideal S512x128 .f32) (s : FVec Ideal S512 .f32)
    (r : Fin 131072) (q : Fin 512) (hs : ∃ t : ℝ, s (ix1 q) = (t : EReal)) : refAt x c s r q = rbfAt x c s r q := by
  obtain ⟨t, ht⟩ := hs
  unfold refAt rbfAt gauss
  rw [ht, ofBits_neg_two]
  exact (gauss_scale _ (dist2_nonneg _ _ _) t).symm

/-- THE REFERENCE IS THE COMMON FUNCTION when every log-width is real. -/
theorem ref_eq_rbf (x : FVec Ideal S131072x128 .f32) (c : FVec Ideal S512x128 .f32) (s : FVec Ideal S512 .f32)
    (hs : ∀ q : Fin 512, ∃ t : ℝ, s (ix1 q) = (t : EReal)) : val_main_v23 (F := Ideal) x c s = rbf x c s := by
  funext i
  obtain ⟨r, q, rfl⟩ : ∃ (r : Fin 131072) (q : Fin 512), i = ix2 r q := ⟨i 0, i 1, eq_ix2 i⟩
  rw [ref_apply, refAt_eq_rbfAt x c s r q (hs q), rbf_ix2]

end Cert.Rbf.Ref

end
-- ==== Proof.Finite.lean ====
/-
  What the precondition gives: every log-width is a real number.

  The precondition is the conjunction of three `jnp.all(|a| < +∞)`, one per argument. Its third conjunct, read at
  an index `q`, says `max(s_q, −s_q) < +∞` on the extended reals, which rules out both infinities: `s_q` is real.
  (The other two conjuncts, on the points and the centres, are not needed: the two programs agree at every
  extended-real squared distance that is not below zero.)
-/
import proofs.«179064_j68968584839825_2_alg».proof.Pre_finite_inputs
import proofs.«179064_j68968584839825_2_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal
import Idealize.ShloMosaic.PureOps.Ideal.Laws

noncomputable section

namespace Cert.Rbf.Finite

open Idealize.ShloMosaic Idealize.ShloMosaic.ValueIdx Cert.Pre_finite_inputs
open Cert.Pre_finite_inputs.Facts

instance : Subsingleton S_.Idx := ⟨fun _ _ => funext fun d => d.elim0⟩

/-- The word `0x7F800000` is `+∞`. -/
theorem ofBits_inf : Ideal.ofBits .f32 0x7F800000#32 = ⊤ := by
  simp [Ideal.ofBits, Ideal.ieee]

/-- An extended real whose absolute value compares below `+∞` is a real number. -/
theorem real_of_abs_lt_top (x : EReal) (h : Ideal.cmp .olt (max x (-x)) ⊤ = 1#1) : ∃ t : ℝ, x = (t : EReal) := by
  have hlt : max x (-x) < ⊤ := by
    by_contra hn
    simp [Ideal.cmp, hn] at h
  induction x using EReal.rec with
  | bot => simp at hlt
  | coe t => exact ⟨t, rfl⟩
  | top => simp at hlt

/-- Under the precondition every log-width is real. -/
theorem widths_real (a0 : FVec Ideal S131072x128 .f32) (a1 : FVec Ideal S512x128 .f32) (a2 : FVec Ideal S512 .f32)
    (h : fn (F := Ideal) a0 a1 a2 = fun _ => 1#1) (q : Fin 512) : ∃ t : ℝ, a2 (ix1 q) = (t : EReal) := by
  have h0 := congrFun h ix0
  dsimp only [fn] at h0
  obtain ⟨-, h2⟩ := IntOp.andi_eq_one.1 h0
  have e := Host.reduce_andi_all _ _ reducesTo_S512_S_d0 h_S_ ix0 h2 (ix1 q)
  refine real_of_abs_lt_top _ ?_
  rw [← ofBits_inf]
  exact e

end Cert.Rbf.Finite

end
-- ==== Proof.lean ====
/-
  A radial-basis layer against its reference, on the extended reals.

  For points `x` (131072 × 128), centres `c` (512 × 128) and log-widths `s` (512), both programs compute, at `(r, q)`,
  a Gaussian of the clamped squared distance `D = max(‖x_r‖² − 2·⟨x_r, c_q⟩ + ‖c_q‖², 0)`. One program forms the row of
  squared norms `‖c_q‖²` and the row of weights `exp((−2)·s_q)` on the host, then in 64 blocks of 2048 points takes
  `exp(0 − D · exp((−2)·s_q))`; the other takes `exp(−((√D / exp s_q)·(√D / exp s_q)))` over the whole arrays at once.

  * The squared distance is the same extended real on both sides: the sums over the 128 features are the same sums
    (a block's point `p` at grid point `t` is point `2048·t + p`; the matrix product against the transposed centres
    contracts the same axis), the factor `2` is the same float word, and the zeros the sums start from add nothing.
  * The two scalings agree at every `D ≥ 0`, finite or `+∞`, as soon as `s_q` is a real number — which is what the
    precondition says of the log-widths. Finiteness of the points and the centres is not used.
  * Each program runs to completion without fault and leaves its arguments as they were; the idealized kernel is the
    kernel's own text read on the extended reals (no rewrite was applied, so nothing is owed for it).
-/
import proofs.«179064_j68968584839825_2_alg».proof.Defs
import proofs.«179064_j68968584839825_2_alg».proof.Proof.Gen.Kernel
import proofs.«179064_j68968584839825_2_alg».proof.Proof.Gen.Kernel.Skeleton
import proofs.«179064_j68968584839825_2_alg».proof.Proof.Gen.Kernel.Launch
import proofs.«179064_j68968584839825_2_alg».proof.Proof.Gen.Kernel.Points
import proofs.«179064_j68968584839825_2_alg».proof.Proof.Gen.Kernel.Frame
import proofs.«179064_j68968584839825_2_alg».proof.Proof.Gen.KernelIdeal
import proofs.«179064_j68968584839825_2_alg».proof.Proof.Gen.KernelIdeal.Skeleton
import proofs.«179064_j68968584839825_2_alg».proof.Proof.Gen.KernelIdeal.Launch
import proofs.«179064_j68968584839825_2_alg».proof.Proof.Gen.KernelIdeal.Points
import proofs.«179064_j68968584839825_2_alg».proof.Proof.Gen.KernelIdeal.Frame
import proofs.«179064_j68968584839825_2_alg».proof.Proof.Gen.ReferenceIdeal
import proofs.«179064_j68968584839825_2_alg».proof.Proof.Gen.Pre_finite_inputs
import proofs.«179064_j68968584839825_2_alg».proof.Proof.Gen.KernelIdeal.Value
import proofs.«179064_j68968584839825_2_alg».proof.Proof.Gen.ReferenceIdeal.Run
import proofs.«179064_j68968584839825_2_alg».proof.Proof.Gen.ReferenceIdeal.Read
import proofs.«179064_j68968584839825_2_alg».proof.Proof.Blocks
import proofs.«179064_j68968584839825_2_alg».proof.Proof.RefIs
import proofs.«179064_j68968584839825_2_alg».proof.Proof.Finite
import Idealize.ShloMosaic.Adequacy
import Idealize.ShloMosaic.Init

noncomputable section

namespace Cert.Proof

open Idealize.ShloMosaic Idealize.ShloMosaic.TcCoe Idealize.SL.Sem

namespace RbfClaims

/-- The kernel as printed runs to completion, faults nowhere and leaves its three arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the extended reals: nothing to show. -/
theorem preserves : Cert.preserves_Kernel_KernelIdeal := trivial

/-- From memories that agree on the arguments, both programs end with the result array at the one function
    `Cert.Rbf.rbf` of the arguments: the kernel by its 64 blocks, the reference by its operations read one at a time
    and the scaling law, the log-widths being real by the precondition. -/
theorem algebraic : Cert.algebraic_KernelIdeal_ReferenceIdeal := by
  intro m ρ m' ρ' hpre hagree
  refine ⟨fun c => Cert.Rbf.rbf (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.Rbf.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, (hagree c).1, (hagree c).2.1, (hagree c).2.2]
  exact Cert.Rbf.Ref.ref_eq_rbf _ _ _ (Cert.Rbf.Finite.widths_real _ _ _ (hpre c))

end RbfClaims

theorem claim : Cert.Claim := ⟨Cert.Kernel.Gen.facts, Cert.KernelIdeal.Gen.facts, Cert.ReferenceIdeal.Gen.facts, Cert.Pre_finite_inputs.Gen.facts,
  RbfClaims.frame_kernel, RbfClaims.frame_kernelIdeal, RbfClaims.frame_referenceIdeal, RbfClaims.preserves, RbfClaims.algebraic⟩

end Cert.Proof

end
